-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x1024 : Shape := ⟨2, ![40000, 1024]⟩
abbrev S2x1280000 : Shape := ⟨2, ![2, 1280000]⟩
abbrev S1024x64 : Shape := ⟨2, ![1024, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S40000x1024 : S_.BroadcastsInDim S40000x1024 (![] : Fin 0 → Fin S40000x1024.rank)
  reducesTo_S40000x1024_S_d0_1 : S40000x1024.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S40000x1024 .f32) (main_arg1 : IVec S2x1280000 32) (main_arg2 : FVec F S1024x64 .f32) (main_arg3 : FVec F S64 .f32) (main_arg4 : FVec F S64x40 .f32) (main_arg5 : FVec F S40 .f32) : IVec S_ 1 :=
  let main_v0 : FVec F S40000x1024 .f32 := Host.absf main_arg0
  let main_cst : FVec F S_ .f32 := constant S_ .f32 0x7F800000#32
  let main_v1 : FVec F S40000x1024 .f32 := broadcastInDim S40000x1024 ![] bcast_S_S40000x1024 main_cst
  let main_v2 : IVec S40000x1024 1 := cmpf .olt main_v0 main_v1
  let main_c : IVec S_ 1 := constantI S_ 1 1#1
  let main_v3 : IVec S_ 1 := (fun x v => Host.reduce IntOp.andi x v reducesTo_S40000x1024_S_d0_1 h_S_) main_v2 main_c
  let main_v4 : FVec F S1024x64 .f32 := Host.absf main_arg2
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_v13 main_v16
-- ==== Kernel.lean ====
abbrev S40000x1024 : Shape := ⟨2, ![40000, 1024]⟩
abbrev S2x1280000 : Shape := ⟨2, ![2, 1280000]⟩
abbrev S1024x64 : Shape := ⟨2, ![1024, 64]⟩
abbrev S64 : Shape := ⟨1, ![64]⟩
abbrev S64x40 : Shape := ⟨2, ![64, 40]⟩
abbrev S40 : Shape := ⟨1, ![40]⟩
abbrev S40000x64 : Shape := ⟨2, ![40000, 64]⟩
abbrev S2000x1024 : Shape := ⟨2, ![2000, 1024]⟩
abbrev S2000x64 : Shape := ⟨2, ![2000, 64]⟩
abbrev S40000 : Shape := ⟨1, ![40000]⟩
abbrev S1x1280000 : Shape := ⟨2, ![1, 1280000]⟩
abbrev S1280000 : Shape := ⟨1, ![1280000]⟩
abbrev S1320000 : Shape := ⟨1, ![1320000]⟩
abbrev S_ : Shape := ⟨0, ![]⟩
abbrev S1320000x1 : Shape := ⟨2, ![1320000, 1]⟩
abbrev S1320000x64 : Shape := ⟨2, ![1320000, 64]⟩
abbrev S1x64 : Shape := ⟨2, ![1, 64]⟩
abbrev S40000x40 : Shape := ⟨2, ![40000, 40]⟩
abbrev S5000x64 : Shape := ⟨2, ![5000, 64]⟩
abbrev S5000x40 : Shape := ⟨2, ![5000, 40]⟩
abbrev S1320000x40 : Shape := ⟨2, ![1320000, 40]⟩
abbrev S1x40 : Shape := ⟨2, ![1, 40]⟩
abbrev S40000x1 : Shape := ⟨2, ![40000, 1]⟩

abbrev nBuf : Space → Nat
  | .hbm => 144
  | .vmem => 10
  | .smem => 0
  | _ => 0

abbrev hbmTy0_0 (i : Nat) : BufTy := match i % 128 with
  | 0 => ⟨S40000x1024, .f32⟩
  | 1 => ⟨S2x1280000, .i32⟩
  | 2 => ⟨S1024x64, .f32⟩
  | 3 => ⟨S64, .f32⟩
  | 4 => ⟨S64x40, .f32⟩
  | 5 => ⟨S40, .f32⟩
  | 6 => ⟨S40000x64, .f32⟩
  | 7 => ⟨S40000, .i32⟩
  | 8 => ⟨S1x1280000, .i32⟩
  | 9 => ⟨S1280000, .i32⟩
  | 10 => ⟨S1320000, .i32⟩
  | 11 => ⟨S1x1280000, .i32⟩
  | 12 => ⟨S1280000, .i32⟩
  | 13 => ⟨S1320000, .i32⟩
  | 14 => ⟨S_, .f32⟩
  | 15 => ⟨S1320000, .f32⟩
  | 16 => ⟨S_, .f32⟩
  | 17 => ⟨S40000, .f32⟩
  | 18 => ⟨S1320000x1, .i32⟩
  | 19 => ⟨S40000, .f32⟩
  | 20 => ⟨S_, .f32⟩
  | 21 => ⟨S40000, .f32⟩
  | 22 => ⟨S40000, .i1⟩
  | 23 => ⟨S40000, .f32⟩
  | 24 => ⟨S_, .f32⟩
  | 25 => ⟨S_, .f32⟩
  | 26 => ⟨S40000, .f32⟩
  | 27 => ⟨S40000, .f32⟩
  | 28 => ⟨S_, .i32⟩
  | 29 => ⟨S1320000, .i32⟩
  | 30 => ⟨S1320000, .i1⟩
  | 31 => ⟨S_, .i32⟩
  | 32 => ⟨S1320000, .i32⟩
  | 33 => ⟨S1320000, .i32⟩
  | 34 => ⟨S1320000, .i32⟩
  | 35 => ⟨S1320000x1, .i32⟩
  | 36 => ⟨S1320000, .f32⟩
  | 37 => ⟨S_, .i32⟩
  | 38 => ⟨S1320000, .i32⟩
  | 39 => ⟨S1320000, .i1⟩
  | 40 => ⟨S_, .i32⟩
  | 41 => ⟨S1320000, .i32⟩
  | 42 => ⟨S1320000, .i32⟩
  | 43 => ⟨S1320000, .i32⟩
  | 44 => ⟨S1320000x1, .i32⟩
  | 45 => ⟨S1320000, .f32⟩
  | 46 => ⟨S1320000, .f32⟩
  | 47 => ⟨S_, .i32⟩
  | 48 => ⟨S1320000, .i32⟩
  | 49 => ⟨S1320000, .i1⟩
  | 50 => ⟨S_, .i32⟩
  | 51 => ⟨S1320000, .i32⟩
  | 52 => ⟨S1320000, .i32⟩
  | 53 => ⟨S1320000, .i32⟩
  | 54 => ⟨S1320000x1, .i32⟩
  | 55 => ⟨S1320000x64, .f32⟩
  | 56 => ⟨S1320000x1, .f32⟩
  | 57 => ⟨S1320000x64, .f32⟩
  | 58 => ⟨S1320000x64, .f32⟩
  | 59 => ⟨S_, .f32⟩
  | 60 => ⟨S40000x64, .f32⟩
  | 61 => ⟨S1320000x1, .i32⟩
  | 62 => ⟨S40000x64, .f32⟩
  | 63 => ⟨S1x64, .f32⟩
  | 64 => ⟨S40000x64, .f32⟩
  | 65 => ⟨S40000x64, .f32⟩
  | 66 => ⟨S_, .f32⟩
  | 67 => ⟨S40000x64, .f32⟩
  | 68 => ⟨S40000x64, .f32⟩
  | 69 => ⟨S40000x40, .f32⟩
  | 70 => ⟨S40000, .i32⟩
  | 71 => ⟨S1x1280000, .i32⟩
  | 72 => ⟨S1280000, .i32⟩
  | 73 => ⟨S1320000, .i32⟩
  | 74 => ⟨S1x1280000, .i32⟩
  | 75 => ⟨S1280000, .i32⟩
  | 76 => ⟨S1320000, .i32⟩
  | 77 => ⟨S_, .f32⟩
  | 78 => ⟨S1320000, .f32⟩
  | 79 => ⟨S_, .f32⟩
  | 80 => ⟨S40000, .f32⟩
  | 81 => ⟨S1320000x1, .i32⟩
  | 82 => ⟨S40000, .f32⟩
  | 83 => ⟨S_, .f32⟩
  | 84 => ⟨S40000, .f32⟩
  | 85 => ⟨S40000, .i1⟩
  | 86 => ⟨S40000, .f32⟩
  | 87 => ⟨S_, .f32⟩
  | 88 => ⟨S_, .f32⟩
  | 89 => ⟨S40000, .f32⟩
  | 90 => ⟨S40000, .f32⟩
  | 91 => ⟨S_, .i32⟩
  | 92 => ⟨S1320000, .i32⟩
  | 93 => ⟨S1320000, .i1⟩
  | 94 => ⟨S_, .i32⟩
  | 95 => ⟨S1320000, .i32⟩
  | 96 => ⟨S1320000, .i32⟩
  | 97 => ⟨S1320000, .i32⟩
  | 98 => ⟨S1320000x1, .i32⟩
  | 99 => ⟨S1320000, .f32⟩
  | 100 => ⟨S_, .i32⟩
  | 101 => ⟨S1320000, .i32⟩
  | 102 => ⟨S1320000, .i1⟩
  | 103 => ⟨S_, .i32⟩
  | 104 => ⟨S1320000, .i32⟩
  | 105 => ⟨S1320000, .i32⟩
  | 106 => ⟨S1320000, .i32⟩
  | 107 => ⟨S1320000x1, .i32⟩
  | 108 => ⟨S1320000, .f32⟩
  | 109 => ⟨S1320000, .f32⟩
  | 110 => ⟨S_, .i32⟩
  | 111 => ⟨S1320000, .i32⟩
  | 112 => ⟨S1320000, .i1⟩
  | 113 => ⟨S_, .i32⟩
  | 114 => ⟨S1320000, .i32⟩
  | 115 => ⟨S1320000, .i32⟩
  | 116 => ⟨S1320000, .i32⟩
  | 117 => ⟨S1320000x1, .i32⟩
  | 118 => ⟨S1320000x40, .f32⟩
  | 119 => ⟨S1320000x1, .f32⟩
  | 120 => ⟨S1320000x40, .f32⟩
  | 121 => ⟨S1320000x40, .f32⟩
  | 122 => ⟨S_, .f32⟩
  | 123 => ⟨S40000x40, .f32⟩
  | 124 => ⟨S1320000x1, .i32⟩
  | 125 => ⟨S40000x40, .f32⟩
  | 126 => ⟨S1x40, .f32⟩
  | 127 => ⟨S40000x40, .f32⟩
  | _ => ⟨S40000x1024, .f32⟩

abbrev hbmTy0_1 (i : Nat) : BufTy := match i % 128 with
  | 0 => ⟨S40000x40, .f32⟩
  | 1 => ⟨S_, .f32⟩
  | 2 => ⟨S40000, .f32⟩
  | 3 => ⟨S_, .f32⟩
  | 4 => ⟨S40000, .f32⟩
  | 5 => ⟨S40000, .f32⟩
  | 6 => ⟨S40000x1, .f32⟩
  | 7 => ⟨S40000x40, .f32⟩
  | 8 => ⟨S40000x40, .f32⟩
  | 9 => ⟨S40000x40, .f32⟩
  | 10 => ⟨S_, .f32⟩
  | 11 => ⟨S40000, .f32⟩
  | 12 => ⟨S40000x1, .f32⟩
  | 13 => ⟨S40000x1, .f32⟩
  | 14 => ⟨S40000x40, .f32⟩
  | 15 => ⟨S40000x40, .f32⟩
  | _ => ⟨S40000x1024, .f32⟩

abbrev hbmTy (i : Nat) : BufTy := match i / 128 with
  | 0 => hbmTy0_0 i
  | 1 => hbmTy0_1 i
  | _ => ⟨S40000x1024, .f32⟩

abbrev bufTy : (tb : Table) → Fin (tcTables nBuf tb) → BufTy
  | .hbm, ⟨i, _⟩ => hbmTy i
  | .local _ .vmem, ⟨0, _⟩ => ⟨S2000x1024, .f32⟩
  | .local _ .vmem, ⟨1, _⟩ => ⟨S2000x1024, .f32⟩
  | .local _ .vmem, ⟨2, _⟩ => ⟨S1024x64, .f32⟩
  | .local _ .vmem, ⟨3, _⟩ => ⟨S2000x64, .f32⟩
  | .local _ .vmem, ⟨4, _⟩ => ⟨S2000x64, .f32⟩
  | .local _ .vmem, ⟨5, _⟩ => ⟨S5000x64, .f32⟩
  | .local _ .vmem, ⟨6, _⟩ => ⟨S5000x64, .f32⟩
  | .local _ .vmem, ⟨7, _⟩ => ⟨S64x40, .f32⟩
  | .local _ .vmem, ⟨8, _⟩ => ⟨S5000x40, .f32⟩
  | .local _ .vmem, ⟨9, _⟩ => ⟨S5000x40, .f32⟩
  | _, _ => ⟨S40000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_call3_cst : Ref sig .tc := ⟨.hbm, 129, rfl⟩
abbrev main_call3_v0 : Ref sig .tc := ⟨.hbm, 130, rfl⟩
abbrev main_call3_cst_0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_cst_1 : Ref sig .tc := ⟨.hbm, 138, rfl⟩
abbrev main_call3_v7 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_v95 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S2000x1024_S2000x1024_0_0 : ∀ a, (![0, 0] : Fin 2 → Nat) a + S2000x1024.size a ≤ S2000x1024.size a
  h_S2000x1024 : 0 < S2000x1024.numel
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  inb_S2000x64_S2000x64_0_0 : ∀ a, (![0, 0] : Fin 2 → Nat) a + S2000x64.size a ≤ S2000x64.size a
  h_S2000x64 : 0 < S2000x64.numel
  slices_S2x1280000_S1x1280000_0_0 : S2x1280000.Slices ![0, 0] S1x1280000
  shapeCasts_S1x1280000_S1280000 : S1x1280000.ShapeCasts S1280000
  concatenates_S1280000_S40000_S1320000_d0 : Shape.Concatenates [S1280000, S40000] S1320000 0
  slices_S2x1280000_S1x1280000_1_0 : S2x1280000.Slices ![1, 0] S1x1280000
  bcast_S_S1320000 : S_.BroadcastsInDim S1320000 (![] : Fin 0 → Fin S1320000.rank)
  bcast_S_S40000 : S_.BroadcastsInDim S40000 (![] : Fin 0 → Fin S40000.rank)
  bcast_S1320000_S1320000x1_0 : S1320000.BroadcastsInDim S1320000x1 (![0] : Fin 1 → Fin S1320000x1.rank)
  bcast_S1320000x1_S1320000x64_0_1 : S1320000x1.BroadcastsInDim S1320000x64 (![0, 1] : Fin 2 → Fin S1320000x64.rank)
  bcast_S_S40000x64 : S_.BroadcastsInDim S40000x64 (![] : Fin 0 → Fin S40000x64.rank)
  bcast_S64_S1x64_1 : S64.BroadcastsInDim S1x64 (![1] : Fin 1 → Fin S1x64.rank)
  bcast_S1x64_S40000x64_0_1 : S1x64.BroadcastsInDim S40000x64 (![0, 1] : Fin 2 → Fin S40000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x40_S64x40_0_0 : ∀ a, (![0, 0] : Fin 2 → Nat) a + S64x40.size a ≤ S64x40.size a
  h_S64x40 : 0 < S64x40.numel
  inb_S5000x40_S5000x40_0_0 : ∀ a, (![0, 0] : Fin 2 → Nat) a + S5000x40.size a ≤ S5000x40.size a
  h_S5000x40 : 0 < S5000x40.numel
  bcast_S1320000x1_S1320000x40_0_1 : S1320000x1.BroadcastsInDim S1320000x40 (![0, 1] : Fin 2 → Fin S1320000x40.rank)
  bcast_S_S40000x40 : S_.BroadcastsInDim S40000x40 (![] : Fin 0 → Fin S40000x40.rank)
  bcast_S40_S1x40_1 : S40.BroadcastsInDim S1x40 (![1] : Fin 1 → Fin S1x40.rank)
  bcast_S1x40_S40000x40_0_1 : S1x40.BroadcastsInDim S40000x40 (![0, 1] : Fin 2 → Fin S40000x40.rank)
  reducesTo_S40000x40_S40000_d1 : S40000x40.ReducesTo [1] S40000
  h_S_ : 0 < S_.numel
  bcast_S40000_S40000x1_0 : S40000.BroadcastsInDim S40000x1 (![0] : Fin 1 → Fin S40000x1.rank)
  bcast_S40000x1_S40000x40_0_1 : S40000x1.BroadcastsInDim S40000x40 (![0, 1] : Fin 2 → Fin S40000x40.rank)
  dot_S2000x1024_S1024x64_S2000x64_1_0_0_1_n_n_wf : DotDims.WF S2000x1024 S1024x64 S2000x64 [1] [0] [0] [1] [] []
  scatter_S40000_S1320000x1_S1320000_n_0_0_1_wf : ScatterDims.WF S40000 S1320000x1 S1320000 [] [0] [0] 1
  gather_S40000_S1320000x1_S1320000_n_0_n_n_0_1_1_wf : GatherDims.WF S40000 S1320000x1 S1320000 [] [0] [] [0] [] 1 ![1]
  gather_S40000x64_S1320000x1_S1320000x64_1_0_n_n_0_1_164_wf : GatherDims.WF S40000x64 S1320000x1 S1320000x64 [1] [0] [] [0] [] 1 ![1, 64]
  scatter_S40000x64_S1320000x1_S1320000x64_1_0_0_1_wf : ScatterDims.WF S40000x64 S1320000x1 S1320000x64 [1] [0] [0] 1
  dot_S5000x64_S64x40_S5000x40_1_0_0_1_n_n_wf : DotDims.WF S5000x64 S64x40 S5000x40 [1] [0] [0] [1] [] []
  gather_S40000x40_S1320000x1_S1320000x40_1_0_n_n_0_1_140_wf : GatherDims.WF S40000x40 S1320000x1 S1320000x40 [1] [0] [] [0] [] 1 ![1, 40]
  scatter_S40000x40_S1320000x1_S1320000x40_1_0_0_1_wf : ScatterDims.WF S40000x40 S1320000x1 S1320000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1024.size a ≤ S40000x1024.size a
  hwx0_0 : ∀ i : grid0.Coords, EltTy.bits .f32 = 32 ∨ (Rect.block (s := S40000x1024) S2000x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S40000x64.size a
  hwx0_2 : ∀ i : grid0.Coords, EltTy.bits .f32 = 32 ∨ (Rect.block (s := S40000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S40000x64.size a
  hwx1_0 : ∀ i : grid1.Coords, EltTy.bits .f32 = 32 ∨ (Rect.block (s := S40000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x40.size a ≤ S64x40.size a
  hwx1_1 : ∀ i : grid1.Coords, EltTy.bits .f32 = 32 ∨ (Rect.block (s := S64x40) S64x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x40.size a ≤ S40000x40.size a
  hwx1_2 : ∀ i : grid1.Coords, EltTy.bits .f32 = 32 ∨ (Rect.block (s := S40000x40) S5000x40.size (cc1_transform_2 i) (hinb1_2 i)).WholeWords (EltTy.packing .f32)

variable [Facts₀]

def dot_S2000x1024_S1024x64_S2000x64_1_0_0_1_n_n : DotDims S2000x1024 S1024x64 S2000x64 where
  lhsContracting := [1]
  rhsContracting := [0]
  lhsNonContracting := [0]
  rhsNonContracting := [1]
  lhsBatch := []
  rhsBatch := []
  wf := dot_S2000x1024_S1024x64_S2000x64_1_0_0_1_n_n_wf
def scatter_S40000_S1320000x1_S1320000_n_0_0_1 : ScatterDims S40000 S1320000x1 S1320000 where
  updateWindowDims := []
  insertedWindowDims := [0]
  scatterDimsToOperandDims := [0]
  indexVectorDim := 1
  wf := scatter_S40000_S1320000x1_S1320000_n_0_0_1_wf
def gather_S40000_S1320000x1_S1320000_n_0_n_n_0_1_1 : GatherDims S40000 S1320000x1 S1320000 where
  offsetDims := []
  collapsedSliceDims := [0]
  operandBatchingDims := []
  startIndicesBatchingDims := []
  startIndexMap := [0]
  indexVectorDim := 1
  sliceSizes := ![1]
  wf := gather_S40000_S1320000x1_S1320000_n_0_n_n_0_1_1_wf
def gather_S40000x64_S1320000x1_S1320000x64_1_0_n_n_0_1_164 : GatherDims S40000x64 S1320000x1 S1320000x64 where
  offsetDims := [1]
  collapsedSliceDims := [0]
  operandBatchingDims := []
  startIndicesBatchingDims := []
  startIndexMap := [0]
  indexVectorDim := 1
  sliceSizes := ![1, 64]
  wf := gather_S40000x64_S1320000x1_S1320000x64_1_0_n_n_0_1_164_wf
def scatter_S40000x64_S1320000x1_S1320000x64_1_0_0_1 : ScatterDims S40000x64 S1320000x1 S1320000x64 where
  updateWindowDims := [1]
  insertedWindowDims := [0]
  scatterDimsToOperandDims := [0]
  indexVectorDim := 1
  wf := scatter_S40000x64_S1320000x1_S1320000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf
def gather_S40000x40_S1320000x1_S1320000x40_1_0_n_n_0_1_140 : GatherDims S40000x40 S1320000x1 S1320000x40 where
  offsetDims := [1]
  collapsedSliceDims := [0]
  operandBatchingDims := []
  startIndicesBatchingDims := []
  startIndexMap := [0]
  indexVectorDim := 1
  sliceSizes := ![1, 40]
  wf := gather_S40000x40_S1320000x1_S1320000x40_1_0_n_n_0_1_140_wf
def scatter_S40000x40_S1320000x1_S1320000x40_1_0_0_1 : ScatterDims S40000x40 S1320000x1 S1320000x40 where
  updateWindowDims := [1]
  insertedWindowDims := [0]
  scatterDimsToOperandDims := [0]
  indexVectorDim := 1
  wf := scatter_S40000x40_S1320000x1_S1320000x40_1_0_0_1_wf

abbrev win0_0 : Pipeline.Window sig grid0 :=
  Pipeline.Window.ofSpec (Memref.whole main_arg0) S2000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S40000x1024 : Shape := ⟨2, ![40000, 1024]⟩
abbrev S2x1280000 : Shape := ⟨2, ![2, 1280000]⟩
abbrev S1024x64 : Shape := ⟨2, ![1024, 64]⟩
abbrev S64 : Shape := ⟨1, ![64]⟩
abbrev S64x40 : Shape := ⟨2, ![64, 40]⟩
abbrev S40 : Shape := ⟨1, ![40]⟩
abbrev S40000x64 : Shape := ⟨2, ![40000, 64]⟩
abbrev S40000 : Shape := ⟨1, ![40000]⟩
abbrev S1x1280000 : Shape := ⟨2, ![1, 1280000]⟩
abbrev S1280000 : Shape := ⟨1, ![1280000]⟩
abbrev S1320000 : Shape := ⟨1, ![1320000]⟩
abbrev S_ : Shape := ⟨0, ![]⟩
abbrev S1320000x1 : Shape := ⟨2, ![1320000, 1]⟩
abbrev S1320000x64 : Shape := ⟨2, ![1320000, 64]⟩
abbrev S1x64 : Shape := ⟨2, ![1, 64]⟩
abbrev S40000x40 : Shape := ⟨2, ![40000, 40]⟩
abbrev S1320000x40 : Shape := ⟨2, ![1320000, 40]⟩
abbrev S1x40 : Shape := ⟨2, ![1, 40]⟩
abbrev S40000x1 : Shape := ⟨2, ![40000, 1]⟩

abbrev nBuf : Space → Nat
  | .hbm => 144
  | .vmem => 0
  | .smem => 0
  | _ => 0

abbrev hbmTy0_0 (i : Nat) : BufTy := match i % 128 with
  | 0 => ⟨S40000x1024, .f32⟩
  | 1 => ⟨S2x1280000, .i32⟩
  | 2 => ⟨S1024x64, .f32⟩
  | 3 => ⟨S64, .f32⟩
  | 4 => ⟨S64x40, .f32⟩
  | 5 => ⟨S40, .f32⟩
  | 6 => ⟨S40000x64, .f32⟩
  | 7 => ⟨S40000, .i32⟩
  | 8 => ⟨S1x1280000, .i32⟩
  | 9 => ⟨S1280000, .i32⟩
  | 10 => ⟨S1320000, .i32⟩
  | 11 => ⟨S1x1280000, .i32⟩
  | 12 => ⟨S1280000, .i32⟩
  | 13 => ⟨S1320000, .i32⟩
  | 14 => ⟨S_, .f32⟩
  | 15 => ⟨S1320000, .f32⟩
  | 16 => ⟨S_, .f32⟩
  | 17 => ⟨S40000, .f32⟩
  | 18 => ⟨S1320000x1, .i32⟩
  | 19 => ⟨S40000, .f32⟩
  | 20 => ⟨S_, .f32⟩
  | 21 => ⟨S40000, .f32⟩
  | 22 => ⟨S40000, .i1⟩
  | 23 => ⟨S40000, .f32⟩
  | 24 => ⟨S_, .f32⟩
  | 25 => ⟨S_, .f32⟩
  | 26 => ⟨S40000, .f32⟩
  | 27 => ⟨S40000, .f32⟩
  | 28 => ⟨S_, .i32⟩
  | 29 => ⟨S1320000, .i32⟩
  | 30 => ⟨S1320000, .i1⟩
  | 31 => ⟨S_, .i32⟩
  | 32 => ⟨S1320000, .i32⟩
  | 33 => ⟨S1320000, .i32⟩
  | 34 => ⟨S1320000, .i32⟩
  | 35 => ⟨S1320000x1, .i32⟩
  | 36 => ⟨S1320000, .f32⟩
  | 37 => ⟨S_, .i32⟩
  | 38 => ⟨S1320000, .i32⟩
  | 39 => ⟨S1320000, .i1⟩
  | 40 => ⟨S_, .i32⟩
  | 41 => ⟨S1320000, .i32⟩
  | 42 => ⟨S1320000, .i32⟩
  | 43 => ⟨S1320000, .i32⟩
  | 44 => ⟨S1320000x1, .i32⟩
  | 45 => ⟨S1320000, .f32⟩
  | 46 => ⟨S1320000, .f32⟩
  | 47 => ⟨S_, .i32⟩
  | 48 => ⟨S1320000, .i32⟩
  | 49 => ⟨S1320000, .i1⟩
  | 50 => ⟨S_, .i32⟩
  | 51 => ⟨S1320000, .i32⟩
  | 52 => ⟨S1320000, .i32⟩
  | 53 => ⟨S1320000, .i32⟩
  | 54 => ⟨S1320000x1, .i32⟩
  | 55 => ⟨S1320000x64, .f32⟩
  | 56 => ⟨S1320000x1, .f32⟩
  | 57 => ⟨S1320000x64, .f32⟩
  | 58 => ⟨S1320000x64, .f32⟩
  | 59 => ⟨S_, .f32⟩
  | 60 => ⟨S40000x64, .f32⟩
  | 61 => ⟨S1320000x1, .i32⟩
  | 62 => ⟨S40000x64, .f32⟩
  | 63 => ⟨S1x64, .f32⟩
  | 64 => ⟨S40000x64, .f32⟩
  | 65 => ⟨S40000x64, .f32⟩
  | 66 => ⟨S_, .f32⟩
  | 67 => ⟨S40000x64, .f32⟩
  | 68 => ⟨S40000x64, .f32⟩
  | 69 => ⟨S40000x40, .f32⟩
  | 70 => ⟨S40000, .i32⟩
  | 71 => ⟨S1x1280000, .i32⟩
  | 72 => ⟨S1280000, .i32⟩
  | 73 => ⟨S1320000, .i32⟩
  | 74 => ⟨S1x1280000, .i32⟩
  | 75 => ⟨S1280000, .i32⟩
  | 76 => ⟨S1320000, .i32⟩
  | 77 => ⟨S_, .f32⟩
  | 78 => ⟨S1320000, .f32⟩
  | 79 => ⟨S_, .f32⟩
  | 80 => ⟨S40000, .f32⟩
  | 81 => ⟨S1320000x1, .i32⟩
  | 82 => ⟨S40000, .f32⟩
  | 83 => ⟨S_, .f32⟩
  | 84 => ⟨S40000, .f32⟩
  | 85 => ⟨S40000, .i1⟩
  | 86 => ⟨S40000, .f32⟩
  | 87 => ⟨S_, .f32⟩
  | 88 => ⟨S_, .f32⟩
  | 89 => ⟨S40000, .f32⟩
  | 90 => ⟨S40000, .f32⟩
  | 91 => ⟨S_, .i32⟩
  | 92 => ⟨S1320000, .i32⟩
  | 93 => ⟨S1320000, .i1⟩
  | 94 => ⟨S_, .i32⟩
  | 95 => ⟨S1320000, .i32⟩
  | 96 => ⟨S1320000, .i32⟩
  | 97 => ⟨S1320000, .i32⟩
  | 98 => ⟨S1320000x1, .i32⟩
  | 99 => ⟨S1320000, .f32⟩
  | 100 => ⟨S_, .i32⟩
  | 101 => ⟨S1320000, .i32⟩
  | 102 => ⟨S1320000, .i1⟩
  | 103 => ⟨S_, .i32⟩
  | 104 => ⟨S1320000, .i32⟩
  | 105 => ⟨S1320000, .i32⟩
  | 106 => ⟨S1320000, .i32⟩
  | 107 => ⟨S1320000x1, .i32⟩
  | 108 => ⟨S1320000, .f32⟩
  | 109 => ⟨S1320000, .f32⟩
  | 110 => ⟨S_, .i32⟩
  | 111 => ⟨S1320000, .i32⟩
  | 112 => ⟨S1320000, .i1⟩
  | 113 => ⟨S_, .i32⟩
  | 114 => ⟨S1320000, .i32⟩
  | 115 => ⟨S1320000, .i32⟩
  | 116 => ⟨S1320000, .i32⟩
  | 117 => ⟨S1320000x1, .i32⟩
  | 118 => ⟨S1320000x40, .f32⟩
  | 119 => ⟨S1320000x1, .f32⟩
  | 120 => ⟨S1320000x40, .f32⟩
  | 121 => ⟨S1320000x40, .f32⟩
  | 122 => ⟨S_, .f32⟩
  | 123 => ⟨S40000x40, .f32⟩
  | 124 => ⟨S1320000x1, .i32⟩
  | 125 => ⟨S40000x40, .f32⟩
  | 126 => ⟨S1x40, .f32⟩
  | 127 => ⟨S40000x40, .f32⟩
  | _ => ⟨S40000x1024, .f32⟩

abbrev hbmTy0_1 (i : Nat) : BufTy := match i % 128 with
  | 0 => ⟨S40000x40, .f32⟩
  | 1 => ⟨S_, .f32⟩
  | 2 => ⟨S40000, .f32⟩
  | 3 => ⟨S_, .f32⟩
  | 4 => ⟨S40000, .f32⟩
  | 5 => ⟨S40000, .f32⟩
  | 6 => ⟨S40000x1, .f32⟩
  | 7 => ⟨S40000x40, .f32⟩
  | 8 => ⟨S40000x40, .f32⟩
  | 9 => ⟨S40000x40, .f32⟩
  | 10 => ⟨S_, .f32⟩
  | 11 => ⟨S40000, .f32⟩
  | 12 => ⟨S40000x1, .f32⟩
  | 13 => ⟨S40000x1, .f32⟩
  | 14 => ⟨S40000x40, .f32⟩
  | 15 => ⟨S40000x40, .f32⟩
  | _ => ⟨S40000x1024, .f32⟩

abbrev hbmTy (i : Nat) : BufTy := match i / 128 with
  | 0 => hbmTy0_0 i
  | 1 => hbmTy0_1 i
  | _ => ⟨S40000x1024, .f32⟩

abbrev bufTy : (tb : Table) → Fin (tcTables nBuf tb) → BufTy
  | .hbm, ⟨i, _⟩ => hbmTy i
  | _, _ => ⟨S40000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_call3_cst : Ref sig .tc := ⟨.hbm, 129, rfl⟩
abbrev main_call3_v0 : Ref sig .tc := ⟨.hbm, 130, rfl⟩
abbrev main_call3_cst_0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_cst_1 : Ref sig .tc := ⟨.hbm, 138, rfl⟩
abbrev main_call3_v7 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_v95 : Ref sig .tc := ⟨.hbm, 143, rfl⟩

abbrev nD : Nat := 1
abbrev τ : Topo := Topo.v7x

variable {F : FTy → Type} [FloatOps F]

class Facts₀ : Prop where
  slices_S2x1280000_S1x1280000_0_0 : S2x1280000.Slices ![0, 0] S1x1280000
  shapeCasts_S1x1280000_S1280000 : S1x1280000.ShapeCasts S1280000
  concatenates_S1280000_S40000_S1320000_d0 : Shape.Concatenates [S1280000, S40000] S1320000 0
  slices_S2x1280000_S1x1280000_1_0 : S2x1280000.Slices ![1, 0] S1x1280000
  bcast_S_S1320000 : S_.BroadcastsInDim S1320000 (![] : Fin 0 → Fin S1320000.rank)
  bcast_S_S40000 : S_.BroadcastsInDim S40000 (![] : Fin 0 → Fin S40000.rank)
  bcast_S1320000_S1320000x1_0 : S1320000.BroadcastsInDim S1320000x1 (![0] : Fin 1 → Fin S1320000x1.rank)
  bcast_S1320000x1_S1320000x64_0_1 : S1320000x1.BroadcastsInDim S1320000x64 (![0, 1] : Fin 2 → Fin S1320000x64.rank)
  bcast_S_S40000x64 : S_.BroadcastsInDim S40000x64 (![] : Fin 0 → Fin S40000x64.rank)
  bcast_S64_S1x64_1 : S64.BroadcastsInDim S1x64 (![1] : Fin 1 → Fin S1x64.rank)
  bcast_S1x64_S40000x64_0_1 : S1x64.BroadcastsInDim S40000x64 (![0, 1] : Fin 2 → Fin S40000x64.rank)
  bcast_S1320000x1_S1320000x40_0_1 : S1320000x1.BroadcastsInDim S1320000x40 (![0, 1] : Fin 2 → Fin S1320000x40.rank)
  bcast_S_S40000x40 : S_.BroadcastsInDim S40000x40 (![] : Fin 0 → Fin S40000x40.rank)
  bcast_S40_S1x40_1 : S40.BroadcastsInDim S1x40 (![1] : Fin 1 → Fin S1x40.rank)
  bcast_S1x40_S40000x40_0_1 : S1x40.BroadcastsInDim S40000x40 (![0, 1] : Fin 2 → Fin S40000x40.rank)
  reducesTo_S40000x40_S40000_d1 : S40000x40.ReducesTo [1] S40000
  h_S_ : 0 < S_.numel
  bcast_S40000_S40000x1_0 : S40000.BroadcastsInDim S40000x1 (![0] : Fin 1 → Fin S40000x1.rank)
  bcast_S40000x1_S40000x40_0_1 : S40000x1.BroadcastsInDim S40000x40 (![0, 1] : Fin 2 → Fin S40000x40.rank)
  dot_S40000x1024_S1024x64_S40000x64_1_0_0_1_n_n_wf : DotDims.WF S40000x1024 S1024x64 S40000x64 [1] [0] [0] [1] [] []
  scatter_S40000_S1320000x1_S1320000_n_0_0_1_wf : ScatterDims.WF S40000 S1320000x1 S1320000 [] [0] [0] 1
  gather_S40000_S1320000x1_S1320000_n_0_n_n_0_1_1_wf : GatherDims.WF S40000 S1320000x1 S1320000 [] [0] [] [0] [] 1 ![1]
  gather_S40000x64_S1320000x1_S1320000x64_1_0_n_n_0_1_164_wf : GatherDims.WF S40000x64 S1320000x1 S1320000x64 [1] [0] [] [0] [] 1 ![1, 64]
  scatter_S40000x64_S1320000x1_S1320000x64_1_0_0_1_wf : ScatterDims.WF S40000x64 S1320000x1 S1320000x64 [1] [0] [0] 1
  dot_S40000x64_S64x40_S40000x40_1_0_0_1_n_n_wf : DotDims.WF S40000x64 S64x40 S40000x40 [1] [0] [0] [1] [] []
  gather_S40000x40_S1320000x1_S1320000x40_1_0_n_n_0_1_140_wf : GatherDims.WF S40000x40 S1320000x1 S1320000x40 [1] [0] [] [0] [] 1 ![1, 40]
  scatter_S40000x40_S1320000x1_S1320000x40_1_0_0_1_wf : ScatterDims.WF S40000x40 S1320000x1 S1320000x40 [1] [0] [0] 1

variable [Facts₀]

def dot_S40000x1024_S1024x64_S40000x64_1_0_0_1_n_n : DotDims S40000x1024 S1024x64 S40000x64 where
  lhsContracting := [1]
  rhsContracting := [0]
  lhsNonContracting := [0]
  rhsNonContracting := [1]
  lhsBatch := []
  rhsBatch := []
  wf := dot_S40000x1024_S1024x64_S40000x64_1_0_0_1_n_n_wf
def scatter_S40000_S1320000x1_S1320000_n_0_0_1 : ScatterDims S40000 S1320000x1 S1320000 where
  updateWindowDims := []
  insertedWindowDims := [0]
  scatterDimsToOperandDims := [0]
  indexVectorDim := 1
  wf := scatter_S40000_S1320000x1_S1320000_n_0_0_1_wf
def gather_S40000_S1320000x1_S1320000_n_0_n_n_0_1_1 : GatherDims S40000 S1320000x1 S1320000 where
  offsetDims := []
  collapsedSliceDims := [0]
  operandBatchingDims := []
  startIndicesBatchingDims := []
  startIndexMap := [0]
  indexVectorDim := 1
  sliceSizes := ![1]
  wf := gather_S40000_S1320000x1_S1320000_n_0_n_n_0_1_1_wf
def gather_S40000x64_S1320000x1_S1320000x64_1_0_n_n_0_1_164 : GatherDims S40000x64 S1320000x1 S1320000x64 where
  offsetDims := [1]
  collapsedSliceDims := [0]
  operandBatchingDims := []
  startIndicesBatchingDims := []
  startIndexMap := [0]
  indexVectorDim := 1
  sliceSizes := ![1, 64]
  wf := gather_S40000x64_S1320000x1_S1320000x64_1_0_n_n_0_1_164_wf
def scatter_S40000x64_S1320000x1_S1320000x64_1_0_0_1 : ScatterDims S40000x64 S1320000x1 S1320000x64 where
  updateWindowDims := [1]
  insertedWindowDims := [0]
  scatterDimsToOperandDims := [0]
  indexVectorDim := 1
  wf := scatter_S40000x64_S1320000x1_S1320000x64_1_0_0_1_wf
def dot_S40000x64_S64x40_S40000x40_1_0_0_1_n_n : DotDims S40000x64 S64x40 S40000x40 where
  lhsContracting := [1]
  rhsContracting := [0]
  lhsNonContracting := [0]
  rhsNonContracting := [1]
  lhsBatch := []
  rhsBatch := []
  wf := dot_S40000x64_S64x40_S40000x40_1_0_0_1_n_n_wf
def gather_S40000x40_S1320000x1_S1320000x40_1_0_n_n_0_1_140 : GatherDims S40000x40 S1320000x1 S1320000x40 where
  offsetDims := [1]
  collapsedSliceDims := [0]
  operandBatchingDims := []
  startIndicesBatchingDims := []
  startIndexMap := [0]
  indexVectorDim := 1
  sliceSizes := ![1, 40]
  wf := gather_S40000x40_S1320000x1_S1320000x40_1_0_n_n_0_1_140_wf
def scatter_S40000x40_S1320000x1_S1320000x40_1_0_0_1 : ScatterDims S40000x40 S1320000x1 S1320000x40 where
  updateWindowDims := [1]
  insertedWindowDims := [0]
  scatterDimsToOperandDims := [0]
  indexVectorDim := 1
  wf := scatter_S40000x40_S1320000x1_S1320000x40_1_0_0_1_wf

class Facts : Prop extends Facts₀ where

variable [Facts]
-- ==== Proof.KRun.lean ====
/-
  The idealized kernel program's run with its RESULT named.

  @main is ten segments: the first pallas_call (x · W₁ by row tiles), four stretches of host operations (the degree
  normalisation, the gather / scale / scatter-add aggregation, the bias and the relu), the second pallas_call
  (h · W₂ by row tiles), and four more stretches (the second aggregation, the bias and the log-softmax). The launch
  theorem for a program of several regions runs the segments one after the other; the last thread state holds every
  unscoped buffer at the contents of the last segment boundary, the fold `Gen.W10` of all ten segments over the launch
  memory. Read against the final state this gives, beside the unchanged arguments, the result buffer `main_v95` at
  `Gen.W10 m ρ c main_v95`: what the value proof then computes.
-/
import proofs.«161962_j55207509623440_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last segment
    boundary's contents and the argument arrays as launched. -/
theorem run_W10 : θ_run defs (onTc (τ := τ) (main (F := F))) ⟨m, fun _ => 0, ρ⟩ (fun r => ∀ c : Dev nD,
      r.2.mem ((c.tc : Thread nD τ).loc main_v95) = W10 m ρ c (Proc.devRef .tc main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v95 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c)⟩)

end Cert.KernelIdeal.RunValue

end
-- ==== Proof.GcnSpec.lean ====
/-
  The two-layer graph convolution that both programs compute around their two matrix products, as functions of the
  arrays, over any float instance.

  One layer, from the node features already multiplied by the layer's weights (`h`, one row per node), the edge list
  `e` (row 0 the sources, row 1 the targets of the 1 280 000 edges) and the bias `b`:
    · the edge endpoints with one self-loop per node appended: `src e`, `dst e` (1 320 000 entries each);
    · an endpoint as a gather or scatter index: negative values wrapped by the number of nodes (`wrapIdx`);
    · the in-degree of every node, a scatter-add of ones at the targets (`deg`), its inverse square root where the degree
      is positive and zero elsewhere (`dinv`), and the weight of an edge, the product of `dinv` at its two ends (`norm`);
    · the aggregation: row `src` of `h` times the edge's weight, scatter-added at row `dst`, plus the bias
      (`agg64` for the 64 hidden features, `agg40` for the 40 classes).
  Between the layers `relu`, after the second `logSoftmax` along the classes: x − max − log ∑ exp (x − max).
  The whole network is `net`, with the two matrix products as parameters: the kernel program computes them by row tiles
  on the TensorCore, the reference by the host's `dot_general`, and nothing else differs between the two.
-/
import proofs.«161962_j55207509623440_1_alg».proof.KernelIdeal

noncomputable section

namespace Cert.Gcn

open Cert.KernelIdeal Idealize.ShloMosaic
open Cert.KernelIdeal.Facts₀ Cert.KernelIdeal.Facts

variable {F : FTy → Type} [FloatOps F] [Cert.KernelIdeal.Facts]

/-- The source node of every edge, then the self-loops 0 … 39999. -/
def src (e : IVec S2x1280000 32) : IVec S1320000 32 :=
  concatenate S1320000 0 [⟨S1280000, (shapeCast _ (extractStridedSlice S1x1280000 ![0, 0] e slices_S2x1280000_S1x1280000_0_0) shapeCasts_S1x1280000_S1280000)⟩, ⟨S40000, (iotaInDim S40000 32 0)⟩] concatenates_S1280000_S40000_S1320000_d0

/-- The target node of every edge, then the self-loops 0 … 39999. -/
def dst (e : IVec S2x1280000 32) : IVec S1320000 32 :=
  concatenate S1320000 0 [⟨S1280000, (shapeCast _ (extractStridedSlice S1x1280000 ![1, 0] e slices_S2x1280000_S1x1280000_1_0) shapeCasts_S1x1280000_S1280000)⟩, ⟨S40000, (iotaInDim S40000 32 0)⟩] concatenates_S1280000_S40000_S1320000_d0

/-- Node numbers as a column of gather indices: a negative number counts from the end. -/
def wrapIdx (v : IVec S1320000 32) : IVec S1320000x1 32 :=
  broadcastInDim S1320000x1 ![0] bcast_S1320000_S1320000x1_0 (select (cmpi .slt v (broadcastInDim S1320000 ![] bcast_S_S1320000 (constantI S_ 32 0#32))) (addi v (broadcastInDim S1320000 ![] bcast_S_S1320000 (constantI S_ 32 40000#32))) v)

/-- The in-degree of every node, self-loop included: ones scatter-added at the targets. -/
def deg (e : IVec S2x1280000 32) : FVec F S40000 .f32 :=
  Host.scatterAdd scatter_S40000_S1320000x1_S1320000_n_0_0_1 (broadcastInDim S40000 ![] bcast_S_S40000 (constant S_ .f32 0x00000000#32)) (broadcastInDim S1320000x1 ![0] bcast_S1320000_S1320000x1_0 (dst e)) (broadcastInDim S1320000 ![] bcast_S_S1320000 (constant S_ .f32 0x3F800000#32))

/-- deg^(−1/2) where the degree is positive, 0 elsewhere. -/
def dinv (e : IVec S2x1280000 32) : FVec F S40000 .f32 :=
  select (cmpf (F := F) .ogt (deg e) (broadcastInDim S40000 ![] bcast_S_S40000 (constant S_ .f32 0x00000000#32))) (Host.rsqrt (deg e)) (broadcastInDim S40000 ![] bcast_S_S40000 (id (constant S_ .f32 0x00000000#32)))

/-- The weight of every edge: dinv at its source times dinv at its target. -/
def norm (e : IVec S2x1280000 32) : FVec F S1320000 .f32 :=
  mulf (Host.gather gather_S40000_S1320000x1_S1320000_n_0_n_n_0_1_1 (dinv e) (wrapIdx (src e))) (Host.gather gather_S40000_S1320000x1_S1320000_n_0_n_n_0_1_1 (dinv e) (wrapIdx (dst e)))

/-- The first layer's aggregation of the projected features `h`, plus its bias. -/
def agg64 (h : FVec F S40000x64 .f32) (e : IVec S2x1280000 32) (b : FVec F S64 .f32) : FVec F S40000x64 .f32 :=
  addf (Host.scatterAdd scatter_S40000x64_S1320000x1_S1320000x64_1_0_0_1 (broadcastInDim S40000x64 ![] bcast_S_S40000x64 (constant S_ .f32 0x00000000#32)) (broadcastInDim S1320000x1 ![0] bcast_S1320000_S1320000x1_0 (dst e)) (mulf (Host.gather gather_S40000x64_S1320000x1_S1320000x64_1_0_n_n_0_1_164 h (wrapIdx (src e))) (broadcastInDim S1320000x64 ![0, 1] bcast_S1320000x1_S1320000x64_0_1 (broadcastInDim S1320000x1 ![0] bcast_S1320000_S1320000x1_0 (norm e))))) (broadcastInDim S40000x64 ![0, 1] bcast_S1x64_S40000x64_0_1 (broadcastInDim S1x64 ![1] bcast_S64_S1x64_1 b))

/-- max(x, 0), entry by entry. -/
def relu (x : FVec F S40000x64 .f32) : FVec F S40000x64 .f32 :=
  maximumf x (broadcastInDim S40000x64 ![] bcast_S_S40000x64 (constant S_ .f32 0x00000000#32))

/-- The second layer's aggregation of the projected features `h`, plus its bias. -/
def agg40 (h : FVec F S40000x40 .f32) (e : IVec S2x1280000 32) (b : FVec F S40 .f32) : FVec F S40000x40 .f32 :=
  addf (Host.scatterAdd scatter_S40000x40_S1320000x1_S1320000x40_1_0_0_1 (broadcastInDim S40000x40 ![] bcast_S_S40000x40 (constant S_ .f32 0x00000000#32)) (broadcastInDim S1320000x1 ![0] bcast_S1320000_S1320000x1_0 (dst e)) (mulf (Host.gather gather_S40000x40_S1320000x1_S1320000x40_1_0_n_n_0_1_140 h (wrapIdx (src e))) (broadcastInDim S1320000x40 ![0, 1] bcast_S1320000x1_S1320000x40_0_1 (broadcastInDim S1320000x1 ![0] bcast_S1320000_S1320000x1_0 (norm e))))) (broadcastInDim S40000x40 ![0, 1] bcast_S1x40_S40000x40_0_1 (broadcastInDim S1x40 ![1] bcast_S40_S1x40_1 b))

/-- Every row's maximum (taken from −∞), spread back over the row. -/
def rowMax (x : FVec F S40000x40 .f32) : FVec F S40000x40 .f32 :=
  broadcastInDim S40000x40 ![0, 1] bcast_S40000x1_S40000x40_0_1 (broadcastInDim S40000x1 ![0] bcast_S40000_S40000x1_0 (maximumf (broadcastInDim S40000 ![] bcast_S_S40000 (constant S_ .f32 0xFF800000#32)) (Host.reduce FloatOps.maximumf x (constant S_ .f32 0xFF800000#32) reducesTo_S40000x40_S40000_d1 h_S_)))

/-- log-softmax along the classes: (x − max) − log ∑ exp (x − max), row by row. -/
def logSoftmax (x : FVec F S40000x40 .f32) : FVec F S40000x40 .f32 :=
  subf (subf x (rowMax x)) (broadcastInDim S40000x40 ![0, 1] bcast_S40000x1_S40000x40_0_1 (Host.log (broadcastInDim S40000x1 ![0] bcast_S40000_S40000x1_0 (Host.reduceAdd (Host.exp (subf x (rowMax x))) (constant S_ .f32 0x00000000#32) reducesTo_S40000x40_S40000_d1 h_S_))))

/-- The layers between the first product `h1` and the operand of the second. -/
def hidden (h1 : FVec F S40000x64 .f32) (e : IVec S2x1280000 32) (b1 : FVec F S64 .f32) : FVec F S40000x64 .f32 :=
  relu (agg64 h1 e b1)

/-- The layers after the second product `h2`. -/
def output (h2 : FVec F S40000x40 .f32) (e : IVec S2x1280000 32) (b2 : FVec F S40 .f32) : FVec F S40000x40 .f32 :=
  logSoftmax (agg40 h2 e b2)

end Cert.Gcn

end
-- ==== Proof.KHidden.lean ====
/-
  The idealized kernel program's host operations between its two pallas_calls, read as the hidden layer.

  From the first region's exit to the second region's entry @main runs 62 host operations: the edge endpoints with
  the self-loops, the degree normalisation, the gather / scale / scatter-add aggregation, the bias and the relu. Read back
  from the contents at the first region's exit they compute `Cert.Gcn.hidden` of the first product, the edge list and
  the first bias.
-/
import proofs.«161962_j55207509623440_1_alg».proof.Proof.Gen.KernelIdeal.Frame
import proofs.«161962_j55207509623440_1_alg».proof.Proof.GcnSpec

set_option maxRecDepth 65536

noncomputable section

namespace Cert.KernelIdeal.Stages

open Cert.KernelIdeal Cert.KernelIdeal.Gen Cert.Gcn
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg)

set_option maxHeartbeats 4000000 in
/-- At the second region's entry the buffer it reads as its left operand holds the hidden layer of the first
    region's product. -/
theorem hidden_eq (c : Dev nD) :
    W5 m ρ c (Proc.devRef .tc main_v47)
      = hidden (W1 m ρ c (Proc.devRef .tc main_v0)) (W1 m ρ c (Proc.devRef .tc main_arg1)) (W1 m ρ c (Proc.devRef .tc main_arg3)) := by
  dsimp only [W5, W4, W3, W2]
  after_results_simp
  rfl

end Cert.KernelIdeal.Stages

end
-- ==== Proof.KOutput.lean ====
/-
  The idealized kernel program's host operations after its second pallas_call, read as the output layers.

  From the second region's exit to the return @main runs 74 host operations: the second aggregation with its bias (59)
  and the log-softmax (15). The aggregation is read back from the contents at the second region's exit; the log-softmax
  from ARBITRARY contents and with its reductions as parameters, so that no term holds both and no reduction is ever
  unfolded.
-/
import proofs.«161962_j55207509623440_1_alg».proof.Proof.Gen.KernelIdeal.Frame
import proofs.«161962_j55207509623440_1_alg».proof.Proof.GcnSpec

set_option maxRecDepth 65536

noncomputable section

namespace Cert.KernelIdeal.Stages

open Cert.KernelIdeal Cert.KernelIdeal.Gen Cert.Gcn
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg)

set_option maxHeartbeats 4000000 in
/-- Before the log-softmax the buffer `main_v94` holds the second layer's aggregation of the second region's product. -/
theorem agg_eq (c : Dev nD) :
    W9 m ρ c (Proc.devRef .tc main_v94)
      = agg40 (W6 m ρ c (Proc.devRef .tc main_v48)) (W6 m ρ c (Proc.devRef .tc main_arg1)) (W6 m ρ c (Proc.devRef .tc main_arg5)) := by
  dsimp only [W9, W8, W7]
  after_results_simp
  rfl

/-- The log-softmax stretch with its two reductions, the exponential and the logarithm as PARAMETERS: from any
    contents `X`, the fifteen operations leave in `main_v95` the log-softmax tree of `X main_v94` over those four
    functions. (The operations are a called function's, printed with a transport along each buffer's type; with the
    reductions as variables the transports reduce away and nothing else can be unfolded.) -/
theorem logSoftmax_fold (red radd : FVec F S40000x40 .f32 → FVec F S_ .f32 → FVec F S40000 .f32)
    (ex : FVec F S40000x40 .f32 → FVec F S40000x40 .f32) (lg : FVec F S40000x1 .f32 → FVec F S40000x1 .f32)
    (X : Valuation τ sig (Elt F)) :
    after
      [ StableHlo.TRef.nullary (.of main_call3_cst : StableHlo.TRef sig ⟨S_, .f32⟩) (constant S_ .f32 0xFF800000#32),
        StableHlo.TRef.binary (.of main_v94 : StableHlo.TRef sig ⟨S40000x40, .f32⟩) (.of main_call3_cst : StableHlo.TRef sig ⟨S_, .f32⟩) (.of main_call3_v0 : StableHlo.TRef sig ⟨S40000, .f32⟩) red,
        StableHlo.TRef.nullary (.of main_call3_cst_0 : StableHlo.TRef sig ⟨S_, .f32⟩) (constant S_ .f32 0xFF800000#32),
        StableHlo.TRef.unary (.of main_call3_cst_0 : StableHlo.TRef sig ⟨S_, .f32⟩) (.of main_call3_v1 : StableHlo.TRef sig ⟨S40000, .f32⟩) (broadcastInDim S40000 ![] bcast_S_S40000),
        StableHlo.TRef.binary (.of main_call3_v1 : StableHlo.TRef sig ⟨S40000, .f32⟩) (.of main_call3_v0 : StableHlo.TRef sig ⟨S40000, .f32⟩) (.of main_call3_v2 : StableHlo.TRef sig ⟨S40000, .f32⟩) maximumf,
        StableHlo.TRef.unary (.of main_call3_v2 : StableHlo.TRef sig ⟨S40000, .f32⟩) (.of main_call3_v3 : StableHlo.TRef sig ⟨S40000x1, .f32⟩) (broadcastInDim S40000x1 ![0] bcast_S40000_S40000x1_0),
        StableHlo.TRef.unary (.of main_call3_v3 : StableHlo.TRef sig ⟨S40000x1, .f32⟩) (.of main_call3_v4 : StableHlo.TRef sig ⟨S40000x40, .f32⟩) (broadcastInDim S40000x40 ![0, 1] bcast_S40000x1_S40000x40_0_1),
        StableHlo.TRef.binary (.of main_v94 : StableHlo.TRef sig ⟨S40000x40, .f32⟩) (.of main_call3_v4 : StableHlo.TRef sig ⟨S40000x40, .f32⟩) (.of main_call3_v5 : StableHlo.TRef sig ⟨S40000x40, .f32⟩) subf,
        StableHlo.TRef.unary (.of main_call3_v5 : StableHlo.TRef sig ⟨S40000x40, .f32⟩) (.of main_call3_v6 : StableHlo.TRef sig ⟨S40000x40, .f32⟩) ex,
        StableHlo.TRef.nullary (.of main_call3_cst_1 : StableHlo.TRef sig ⟨S_, .f32⟩) (constant S_ .f32 0x00000000#32),
        StableHlo.TRef.binary (.of main_call3_v6 : StableHlo.TRef sig ⟨S40000x40, .f32⟩) (.of main_call3_cst_1 : StableHlo.TRef sig ⟨S_, .f32⟩) (.of main_call3_v7 : StableHlo.TRef sig ⟨S40000, .f32⟩) radd,
        StableHlo.TRef.unary (.of main_call3_v7 : StableHlo.TRef sig ⟨S40000, .f32⟩) (.of main_call3_v8 : StableHlo.TRef sig ⟨S40000x1, .f32⟩) (broadcastInDim S40000x1 ![0] bcast_S40000_S40000x1_0),
        StableHlo.TRef.unary (.of main_call3_v8 : StableHlo.TRef sig ⟨S40000x1, .f32⟩) (.of main_call3_v9 : StableHlo.TRef sig ⟨S40000x1, .f32⟩) lg,
        StableHlo.TRef.unary (.of main_call3_v9 : StableHlo.TRef sig ⟨S40000x1, .f32⟩) (.of main_call3_v10 : StableHlo.TRef sig ⟨S40000x40, .f32⟩) (broadcastInDim S40000x40 ![0, 1] bcast_S40000x1_S40000x40_0_1),
        StableHlo.TRef.binary (.of main_call3_v5 : StableHlo.TRef sig ⟨S40000x40, .f32⟩) (.of main_call3_v10 : StableHlo.TRef sig ⟨S40000x40, .f32⟩) (.of main_v95 : StableHlo.TRef sig ⟨S40000x40, .f32⟩) subf ]
      X (Proc.devRef .tc main_v95)
      = subf
          (subf (X (Proc.devRef .tc main_v94))
            (broadcastInDim S40000x40 ![0, 1] bcast_S40000x1_S40000x40_0_1 (broadcastInDim S40000x1 ![0] bcast_S40000_S40000x1_0
              (maximumf (broadcastInDim S40000 ![] bcast_S_S40000 (constant S_ .f32 0xFF800000#32))
                (red (X (Proc.devRef .tc main_v94)) (constant S_ .f32 0xFF800000#32))))))
          (broadcastInDim S40000x40 ![0, 1] bcast_S40000x1_S40000x40_0_1 (lg (broadcastInDim S40000x1 ![0] bcast_S40000_S40000x1_0
            (radd (ex (subf (X (Proc.devRef .tc main_v94))
              (broadcastInDim S40000x40 ![0, 1] bcast_S40000x1_S40000x40_0_1 (broadcastInDim S40000x1 ![0] bcast_S40000_S40000x1_0
                (maximumf (broadcastInDim S40000 ![] bcast_S_S40000 (constant S_ .f32 0xFF800000#32))
                  (red (X (Proc.devRef .tc main_v94)) (constant S_ .f32 0xFF800000#32))))))) (constant S_ .f32 0x00000000#32))))) := by
  after_results_simp
  rfl

/-- The last stretch is the log-softmax of `main_v94`, from any contents: the fold above at the host's max-reduce,
    sum-reduce, exponential and logarithm. -/
theorem logSoftmax_eq (X : Valuation τ sig (Elt F)) :
    after hostOps2_3 X (Proc.devRef .tc main_v95) = logSoftmax (X (Proc.devRef .tc main_v94)) :=
  logSoftmax_fold (fun x v => Host.reduce FloatOps.maximumf x v reducesTo_S40000x40_S40000_d1 h_S_)
    (fun x v => Host.reduceAdd x v reducesTo_S40000x40_S40000_d1 h_S_) Host.exp Host.log X

/-- At @main's return the result buffer holds the output layers of the second region's product. -/
theorem output_eq (c : Dev nD) :
    W10 m ρ c (Proc.devRef .tc main_v95)
      = output (W6 m ρ c (Proc.devRef .tc main_v48)) (W6 m ρ c (Proc.devRef .tc main_arg1)) (W6 m ρ c (Proc.devRef .tc main_arg5)) :=
  (logSoftmax_eq (W9 m ρ c)).trans (congrArg logSoftmax (agg_eq m ρ c))

end Cert.KernelIdeal.Stages

end
-- ==== Proof.KArgs.lean ====
/-
  The argument arrays at the idealized kernel program's segment boundaries.

  No host operation and no region writes an argument array, so the edge list, the biases and the second weight matrix
  are read at every boundary as they were launched.
-/
import proofs.«161962_j55207509623440_1_alg».proof.Proof.Gen.KernelIdeal.Frame
import proofs.«161962_j55207509623440_1_alg».proof.Proof.GcnSpec

set_option maxRecDepth 65536

noncomputable section

namespace Cert.KernelIdeal.Stages

open Cert.KernelIdeal Cert.KernelIdeal.Gen Cert.Gcn
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg)

/-- An array that is no window of the first region is, at its exit, as launched. -/
theorem W1_of_launch (c : Dev nD) (b : Ref sig .tc) (hb : ∀ w, Pipeline.arrRef spec0 w ≠ b) :
    W1 m ρ c (Proc.devRef .tc b) = m ((c : Thread nD τ).loc b) :=
  (W1_of_ne m ρ c b hb).trans rfl

/-- The host operations between the regions write no argument array. -/
theorem W5_arg1 (c : Dev nD) : W5 m ρ c (Proc.devRef .tc main_arg1) = W1 m ρ c (Proc.devRef .tc main_arg1) := by
  dsimp only [W5, W4, W3, W2]
  after_results_simp
theorem W5_arg4 (c : Dev nD) : W5 m ρ c (Proc.devRef .tc main_arg4) = W1 m ρ c (Proc.devRef .tc main_arg4) := by
  dsimp only [W5, W4, W3, W2]
  after_results_simp
theorem W5_arg5 (c : Dev nD) : W5 m ρ c (Proc.devRef .tc main_arg5) = W1 m ρ c (Proc.devRef .tc main_arg5) := by
  dsimp only [W5, W4, W3, W2]
  after_results_simp

/-- The edge list, the biases and the weights as the host operations and the second region find them: as launched. -/
theorem W1_arg1 (c : Dev nD) : W1 m ρ c (Proc.devRef .tc main_arg1) = m ((c : Thread nD τ).loc main_arg1) :=
  W1_of_launch m ρ c main_arg1 (by decide)
theorem W1_arg3 (c : Dev nD) : W1 m ρ c (Proc.devRef .tc main_arg3) = m ((c : Thread nD τ).loc main_arg3) :=
  W1_of_launch m ρ c main_arg3 (by decide)
theorem W5_arg4_launch (c : Dev nD) : W5 m ρ c (Proc.devRef .tc main_arg4) = m ((c : Thread nD τ).loc main_arg4) :=
  (W5_arg4 m ρ c).trans (W1_of_launch m ρ c main_arg4 (by decide))
theorem W6_arg1 (c : Dev nD) : W6 m ρ c (Proc.devRef .tc main_arg1) = m ((c : Thread nD τ).loc main_arg1) :=
  (W6_of_ne m ρ c main_arg1 (by decide)).trans ((W5_arg1 m ρ c).trans (W1_arg1 m ρ c))
theorem W6_arg5 (c : Dev nD) : W6 m ρ c (Proc.devRef .tc main_arg5) = m ((c : Thread nD τ).loc main_arg5) :=
  (W6_of_ne m ρ c main_arg5 (by decide)).trans ((W5_arg5 m ρ c).trans (W1_of_launch m ρ c main_arg5 (by decide)))

end Cert.KernelIdeal.Stages

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.Region0.lean ====
/-
  What the first pallas_call leaves in its output array, at the ideal instance.

  The call tiles the 40000×1024 left operand into 20 row blocks of 2000 rows; at grid point t the body loads rows
  2000·t … 2000·t + 1999 of the left operand and the whole 1024×64 right operand, rounds both to bf16 (the identity on
  the extended reals), multiplies them into a zero accumulator and stores the 2000×64 product as block t of the
  output. Entry (p, q) of that block is ∑ₖ x(2000·t + p, k) · w(k, q), which is entry (2000·t + p, q) of the product of the
  whole arrays; the 20 blocks cover the output, so the array ends holding the whole product — the same function of its
  operands as the host's `dot_general` with the plain M×K by K×N dimension numbers.
-/
import proofs.«161962_j55207509623440_1_alg».proof.Proof.Gen.KernelIdeal.Frame
import proofs.«161962_j55207509623440_1_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The product of the whole operands: the host's `dot_general` with the plain dimension numbers. -/
abbrev whole (x : FVec Ideal S40000x1024 .f32) (w : FVec Ideal S1024x64 .f32) : FVec Ideal S40000x64 .f32 :=
  Host.dotGeneral (DotDims.plain 40000 1024 64) none x w

theorem hz : (![0, 0] : Fin 2 → Nat) = fun _ => 0 := funext fun a => by fin_cases a <;> rfl

/-- The body's stored value at entry (p, q) of the block: the row of the left block against the column of the right
    operand (rounding to bf16 is the identity on the extended reals). -/
theorem pay_apply (x0 : Vec Ideal S2000x1024 .f32) (x1 : Vec Ideal S1024x64 .f32) (p : Fin 2000) (q : Fin 64) :
    k0_pay1 x0 x1 (ix2 p q) = ∑ k : Fin 1024, x0 (ix2 p k) * x1 (ix2 k q) := by
  unfold k0_pay1
  exact Cert.Lib.PlainDot.matmul_zero_apply none (truncf .bf16 x0 bitsLt_bf16_f32) (truncf .bf16 x1 bitsLt_bf16_f32) p q

/-- The whole product at entry (P, q). -/
theorem whole_apply (x : FVec Ideal S40000x1024 .f32) (w : FVec Ideal S1024x64 .f32) (P : Fin 40000) (q : Fin 64) :
    whole x w (ix2 P q) = ∑ k : Fin 1024, x (ix2 P k) * w (ix2 k q) :=
  Cert.Lib.PlainDot.dotGeneral_apply none .single x w P q

/-- The printed index maps, decided over the grid: the left operand's block moves with the output's along the rows
    and keeps all columns, the right operand's block is the whole array, and the output's block index is the point. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every row block is some point's. -/
theorem idx_onto : ∀ (q0 : Fin 20), ∃ t : Fin cfg0.N, win0_2.index t = ![q0.val, 0] :=
  (by decide +kernel : ∀ (q0 : Fin 20), ∃ t : Fin grid0.N, win0_2.index t = ![q0.val, 0])

section
variable (V : (c : Dev nD) → (b : Ref sig .tc) → Buf (Elt Ideal) ((c : Thread nD τ).loc b))

/-- The left operand's block at point t, entry (p, k): row (block index)·2000 + p of the array as the region finds it. -/
theorem lblock_apply (c : Dev nD) (t : Fin cfg0.N) (p : Fin 2000) (k : Fin 1024) (P : Fin 40000)
    (hP : P.val = win0_2.index t (0 : Fin 2) * 2000 + p.val) :
    (iblk0 V c 0 t : Vec Ideal S2000x1024 .f32) (ix2 p k) = V c main_arg0 (ix2 P k) := by
  obtain ⟨e0, e1, e2, e3, e4, e5⟩ := idx_facts t
  show V c main_arg0 (((cfg0.win 0).blk t).view.emb (ix2 p k)) = V c main_arg0 (ix2 P k)
  refine congrArg (V c main_arg0) (funext fun a => Fin.ext ?_)
  match a with
  | ⟨0, _⟩ => show win0_0.index t (0 : Fin 2) * 2000 + 1 * p.val = P.val; omega
  | ⟨1, _⟩ => show win0_0.index t (1 : Fin 2) * 1024 + 1 * k.val = k.val; omega

/-- The right operand's block at any point is the whole array. -/
theorem rblock_apply (c : Dev nD) (t : Fin cfg0.N) (k : Fin 1024) (q : Fin 64) :
    (iblk0 V c 1 t : Vec Ideal S1024x64 .f32) (ix2 k q) = V c main_arg2 (ix2 k q) := by
  obtain ⟨e0, e1, e2, e3, e4, e5⟩ := idx_facts t
  show V c main_arg2 (((cfg0.win 1).blk t).view.emb (ix2 k q)) = V c main_arg2 (ix2 k q)
  refine congrArg (V c main_arg2) (funext fun a => Fin.ext ?_)
  match a with
  | ⟨0, _⟩ => show win0_1.index t (0 : Fin 2) * 1024 + 1 * k.val = k.val; omega
  | ⟨1, _⟩ => show win0_1.index t (1 : Fin 2) * 64 + 1 * q.val = q.val; omega

/-- What point t writes back is block t of the whole product of the arrays as the region finds them. -/
theorem flushed_eq (c : Dev nD) (t : Fin cfg0.N) :
    (dat0 V c).flushed 2 t
      = ((cfg0.win 2).blk t).view.read (Elt Ideal) (whole (V c main_arg0) (V c main_arg2)) := by
  show (cfg0.win 2).cut (grid0.coords t) ((dat0 V c).after 2 t) = _
  rw [after0_2]
  unfold out0_2
  rw [View.canon_unit_zero hz]
  simp only [View.ld_unit_zero (S := S2000x1024) hz, View.ld_unit_zero (S := S1024x64) hz]
  funext j
  obtain ⟨p, q, rfl⟩ : ∃ (p : Fin 2000) (q : Fin 64), j = ix2 p q := ⟨j 0, j 1, eq_ix2 j⟩
  obtain ⟨e0, e1, e2, e3, e4, e5⟩ := idx_facts t
  have hP : win0_2.index t (0 : Fin 2) * 2000 + p.val < 40000 := by have := p.isLt; omega
  have hemb : ((cfg0.win 2).blk t).view.emb (ix2 p q) = ix2 (⟨win0_2.index t (0 : Fin 2) * 2000 + p.val, hP⟩ : Fin 40000) q := by
    funext a; apply Fin.ext
    match a with
    | ⟨0, _⟩ => show win0_2.index t (0 : Fin 2) * 2000 + 1 * p.val = win0_2.index t (0 : Fin 2) * 2000 + p.val; omega
    | ⟨1, _⟩ => show win0_2.index t (1 : Fin 2) * 64 + 1 * q.val = q.val; omega
  show k0_pay1 (iblk0 V c 0 t) (iblk0 V c 1 t) (ix2 p q)
      = whole (V c main_arg0) (V c main_arg2) (((cfg0.win 2).blk t).view.emb (ix2 p q))
  rw [hemb, pay_apply, whole_apply]
  refine Finset.sum_congr rfl fun k _ => ?_
  rw [lblock_apply V c t p k ⟨_, hP⟩ rfl, rblock_apply V c t k q]

/-- An index of the output array is in point t's block iff each coordinate is in the block's range on its axis. -/
theorem mem_blk (t : Fin cfg0.N) (i : S40000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v0).slice (win0_2.rect t)).set ↔ _
  rw [View.set_slice_whole, Rect.mem_set_unit]
  exact Iff.rfl

/-- Every index of the output array is in the block of the point its row falls in. -/
theorem cover (i : S40000x64.Idx) :
    ∃ t : Fin cfg0.N, (cfg0.win 2).flush t = true ∧ i ∈ ((cfg0.win 2).blk t).view.set := by
  have hi0 : (i 0).val < 40000 := (i 0).isLt
  have hi1 : (i 1).val < 64 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- The output array after the region: the whole product of the operand arrays as the region finds them. -/
theorem final (c : Dev nD) :
    (dat0 V c).arrAt 2 cfg0.N = whole (V c main_arg0) (V c main_arg2) :=
  (dat0 V c).arrAt_eq_of_cover 2 (whole (V c main_arg0) (V c main_arg2)) (fun t _ => flushed_eq V c t) cover

end

end Cert.KernelIdeal.Region0

end
-- ==== Proof.Region1.lean ====
/-
  What the second pallas_call leaves in its output array, at the ideal instance.

  The call tiles the 40000×64 left operand into 8 row blocks of 5000 rows; at grid point t the body loads rows
  5000·t … 5000·t + 4999 of the left operand and the whole 64×40 right operand, rounds both to bf16 (the identity on
  the extended reals), multiplies them into a zero accumulator and stores the 5000×40 product as block t of the
  output. Entry (p, q) of that block is ∑ₖ x(5000·t + p, k) · w(k, q), which is entry (5000·t + p, q) of the product of the
  whole arrays; the 8 blocks cover the output, so the array ends holding the whole product — the same function of its
  operands as the host's `dot_general` with the plain M×K by K×N dimension numbers.
-/
import proofs.«161962_j55207509623440_1_alg».proof.Proof.Gen.KernelIdeal.Frame
import proofs.«161962_j55207509623440_1_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The product of the whole operands: the host's `dot_general` with the plain dimension numbers. -/
abbrev whole (x : FVec Ideal S40000x64 .f32) (w : FVec Ideal S64x40 .f32) : FVec Ideal S40000x40 .f32 :=
  Host.dotGeneral (DotDims.plain 40000 64 40) none x w

theorem hz : (![0, 0] : Fin 2 → Nat) = fun _ => 0 := funext fun a => by fin_cases a <;> rfl

/-- The body's stored value at entry (p, q) of the block: the row of the left block against the column of the right
    operand (rounding to bf16 is the identity on the extended reals, and the body's reshape of the block to its own shape is the identity). -/
theorem pay_apply (x0 : Vec Ideal S5000x64 .f32) (x1 : Vec Ideal S64x40 .f32) (p : Fin 5000) (q : Fin 40) :
    k1_pay1 x0 x1 (ix2 p q) = ∑ k : Fin 64, x0 (ix2 p k) * x1 (ix2 k q) := by
  unfold k1_pay1
  rw [shapeCast_self]
  exact Cert.Lib.PlainDot.matmul_zero_apply none (truncf .bf16 x0 bitsLt_bf16_f32) (truncf .bf16 x1 bitsLt_bf16_f32) p q

/-- The whole product at entry (P, q). -/
theorem whole_apply (x : FVec Ideal S40000x64 .f32) (w : FVec Ideal S64x40 .f32) (P : Fin 40000) (q : Fin 40) :
    whole x w (ix2 P q) = ∑ k : Fin 64, x (ix2 P k) * w (ix2 k q) :=
  Cert.Lib.PlainDot.dotGeneral_apply none .single x w P q

/-- The printed index maps, decided over the grid: the left operand's block moves with the output's along the rows
    and keeps all columns, the right operand's block is the whole array, and the output's block index is the point. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 7 :=
  (by decide +kernel : ∀ t : Fin grid1.N, _)

/-- Every row block is some point's. -/
theorem idx_onto : ∀ (q0 : Fin 8), ∃ t : Fin cfg1.N, win1_2.index t = ![q0.val, 0] :=
  (by decide +kernel : ∀ (q0 : Fin 8), ∃ t : Fin grid1.N, win1_2.index t = ![q0.val, 0])

section
variable (V : (c : Dev nD) → (b : Ref sig .tc) → Buf (Elt Ideal) ((c : Thread nD τ).loc b))

/-- The left operand's block at point t, entry (p, k): row (block index)·5000 + p of the array as the region finds it. -/
theorem lblock_apply (c : Dev nD) (t : Fin cfg1.N) (p : Fin 5000) (k : Fin 64) (P : Fin 40000)
    (hP : P.val = win1_2.index t (0 : Fin 2) * 5000 + p.val) :
    (iblk1 V c 0 t : Vec Ideal S5000x64 .f32) (ix2 p k) = V c main_v47 (ix2 P k) := by
  obtain ⟨e0, e1, e2, e3, e4, e5⟩ := idx_facts t
  show V c main_v47 (((cfg1.win 0).blk t).view.emb (ix2 p k)) = V c main_v47 (ix2 P k)
  refine congrArg (V c main_v47) (funext fun a => Fin.ext ?_)
  match a with
  | ⟨0, _⟩ => show win1_0.index t (0 : Fin 2) * 5000 + 1 * p.val = P.val; omega
  | ⟨1, _⟩ => show win1_0.index t (1 : Fin 2) * 64 + 1 * k.val = k.val; omega

/-- The right operand's block at any point is the whole array. -/
theorem rblock_apply (c : Dev nD) (t : Fin cfg1.N) (k : Fin 64) (q : Fin 40) :
    (iblk1 V c 1 t : Vec Ideal S64x40 .f32) (ix2 k q) = V c main_arg4 (ix2 k q) := by
  obtain ⟨e0, e1, e2, e3, e4, e5⟩ := idx_facts t
  show V c main_arg4 (((cfg1.win 1).blk t).view.emb (ix2 k q)) = V c main_arg4 (ix2 k q)
  refine congrArg (V c main_arg4) (funext fun a => Fin.ext ?_)
  match a with
  | ⟨0, _⟩ => show win1_1.index t (0 : Fin 2) * 64 + 1 * k.val = k.val; omega
  | ⟨1, _⟩ => show win1_1.index t (1 : Fin 2) * 40 + 1 * q.val = q.val; omega

/-- What point t writes back is block t of the whole product of the arrays as the region finds them. -/
theorem flushed_eq (c : Dev nD) (t : Fin cfg1.N) :
    (dat1 V c).flushed 2 t
      = ((cfg1.win 2).blk t).view.read (Elt Ideal) (whole (V c main_v47) (V c main_arg4)) := by
  show (cfg1.win 2).cut (grid1.coords t) ((dat1 V c).after 2 t) = _
  rw [after1_2]
  unfold out1_2
  rw [View.canon_unit_zero hz]
  simp only [View.ld_unit_zero (S := S5000x64) hz, View.ld_unit_zero (S := S64x40) hz]
  funext j
  obtain ⟨p, q, rfl⟩ : ∃ (p : Fin 5000) (q : Fin 40), j = ix2 p q := ⟨j 0, j 1, eq_ix2 j⟩
  obtain ⟨e0, e1, e2, e3, e4, e5⟩ := idx_facts t
  have hP : win1_2.index t (0 : Fin 2) * 5000 + p.val < 40000 := by have := p.isLt; omega
  have hemb : ((cfg1.win 2).blk t).view.emb (ix2 p q) = ix2 (⟨win1_2.index t (0 : Fin 2) * 5000 + p.val, hP⟩ : Fin 40000) q := by
    funext a; apply Fin.ext
    match a with
    | ⟨0, _⟩ => show win1_2.index t (0 : Fin 2) * 5000 + 1 * p.val = win1_2.index t (0 : Fin 2) * 5000 + p.val; omega
    | ⟨1, _⟩ => show win1_2.index t (1 : Fin 2) * 40 + 1 * q.val = q.val; omega
  show k1_pay1 (iblk1 V c 0 t) (iblk1 V c 1 t) (ix2 p q)
      = whole (V c main_v47) (V c main_arg4) (((cfg1.win 2).blk t).view.emb (ix2 p q))
  rw [hemb, pay_apply, whole_apply]
  refine Finset.sum_congr rfl fun k _ => ?_
  rw [lblock_apply V c t p k ⟨_, hP⟩ rfl, rblock_apply V c t k q]

/-- An index of the output array is in point t's block iff each coordinate is in the block's range on its axis. -/
theorem mem_blk (t : Fin cfg1.N) (i : S40000x40.Idx) :
    i ∈ ((cfg1.win 2).blk t).view.set ↔ ∀ a : Fin 2, win1_2.index t a * S5000x40.size a ≤ (i a).val ∧ (i a).val < win1_2.index t a * S5000x40.size a + S5000x40.size a := by
  show i ∈ ((View.whole main_v48).slice (win1_2.rect t)).set ↔ _
  rw [View.set_slice_whole, Rect.mem_set_unit]
  exact Iff.rfl

/-- Every index of the output array is in the block of the point its row falls in. -/
theorem cover (i : S40000x40.Idx) :
    ∃ t : Fin cfg1.N, (cfg1.win 2).flush t = true ∧ i ∈ ((cfg1.win 2).blk t).view.set := by
  have hi0 : (i 0).val < 40000 := (i 0).isLt
  have hi1 : (i 1).val < 40 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 40 ≤ (i 1).val ∧ (i 1).val < win1_2.index t (1 : Fin 2) * 40 + 40; omega

/-- The output array after the region: the whole product of the operand arrays as the region finds them. -/
theorem final (c : Dev nD) :
    (dat1 V c).arrAt 2 cfg1.N = whole (V c main_v47) (V c main_arg4) :=
  (dat1 V c).arrAt_eq_of_cover 2 (whole (V c main_v47) (V c main_arg4)) (fun t _ => flushed_eq V c t) cover

end

end Cert.KernelIdeal.Region1

end
-- ==== Proof.KValue.lean ====
/-
  The idealized kernel program's result as one function of its arguments, on the extended reals.

  The result buffer at the return is the output layers of the second region's product (the host stretch after it);
  the second region's array ends holding the whole product h · W₂ of the arrays it finds, its left operand being the
  hidden layer of the first region's product (the host stretch between the regions); the first region's array ends
  holding the whole product x · W₁ of the argument arrays. Every argument is read as launched.
-/
import proofs.«161962_j55207509623440_1_alg».proof.Proof.KHidden
import proofs.«161962_j55207509623440_1_alg».proof.Proof.KOutput
import proofs.«161962_j55207509623440_1_alg».proof.Proof.KArgs
import proofs.«161962_j55207509623440_1_alg».proof.Proof.Region0
import proofs.«161962_j55207509623440_1_alg».proof.Proof.Region1

set_option maxRecDepth 65536

noncomputable section

namespace Cert.KernelIdeal.NetValue

open Cert.KernelIdeal Cert.KernelIdeal.Gen Cert.Gcn
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

/-- The first region's output array at its exit: the product of the argument arrays x and W₁. -/
theorem first_eq (c : Dev nD) :
    W1 m ρ c (Proc.devRef .tc main_v0)
      = Region0.whole (m ((c : Thread nD τ).loc main_arg0)) (m ((c : Thread nD τ).loc main_arg2)) :=
  (W1_arr m ρ c 2).trans (Region0.final (V0 m ρ) c)

/-- The second region's output array at its exit: the product of the hidden layer it finds and the argument W₂. -/
theorem second_eq (c : Dev nD) :
    W6 m ρ c (Proc.devRef .tc main_v48)
      = Region1.whole (W5 m ρ c (Proc.devRef .tc main_v47)) (m ((c : Thread nD τ).loc main_arg4)) :=
  ((W6_arr m ρ c 2).trans (Region1.final (V5 m ρ) c)).trans
    (congrArg (Region1.whole (W5 m ρ c (Proc.devRef .tc main_v47))) (Stages.W5_arg4_launch m ρ c))

/-- The result buffer at the return, as the network of the argument arrays. -/
theorem result_eq (c : Dev nD) :
    W10 m ρ c (Proc.devRef .tc main_v95)
      = output (Region1.whole
          (hidden (Region0.whole (m ((c : Thread nD τ).loc main_arg0)) (m ((c : Thread nD τ).loc main_arg2)))
            (m ((c : Thread nD τ).loc main_arg1)) (m ((c : Thread nD τ).loc main_arg3)))
          (m ((c : Thread nD τ).loc main_arg4)))
        (m ((c : Thread nD τ).loc main_arg1)) (m ((c : Thread nD τ).loc main_arg5)) := by
  rw [Stages.output_eq m ρ c, second_eq m ρ c, Stages.W6_arg1 m ρ c, Stages.W6_arg5 m ρ c,
    Stages.hidden_eq m ρ c, first_eq m ρ c, Stages.W1_arg1 m ρ c, Stages.W1_arg3 m ρ c]

end Cert.KernelIdeal.NetValue

end
-- ==== Proof.RStages.lean ====
/-
  The reference program's run, read as the layers of the network.

  The reference's @main is a straight line of 138 host operations: the first `dot_general` (x · W₁) and the operations of
  the hidden layer (the first 63), the second `dot_general` (h · W₂) and the second aggregation (the next 60), and
  the log-softmax (the last 15) — operation for operation the ones the kernel program runs on the host around its two
  pallas_calls. The fold of the whole line is the fold of the three stretches one after the other; each stretch is read
  from ARBITRARY contents, so that no term ever holds more than one stretch. The result buffer at the end is
  `Cert.Gcn.output` of the second product of `Cert.Gcn.hidden` of the first.
-/
import proofs.«161962_j55207509623440_1_alg».proof.Proof.RefRun
import proofs.«161962_j55207509623440_1_alg».proof.Proof.GcnSpec
import proofs.«161962_j55207509623440_1_alg».proof.Proof.Gen.KernelIdeal
import Idealize.ShloMosaic.Lib.Pipeline.Frame

set_option maxRecDepth 65536

noncomputable section

namespace Cert.ReferenceIdeal.Stages

open Cert.ReferenceIdeal Cert.ReferenceIdeal.Gen Cert.ReferenceIdeal.ValueP Cert.Gcn
open Idealize.ShloMosaic Idealize.ShloMosaic.TcCoe Idealize.ShloMosaic.StableHlo
open Idealize.SL Idealize.SL.Sem

variable {F : FTy → Type} [FloatOps F]

/-- The first product and the hidden layer: operations 0 … 62. -/
abbrev opsA : List (HloOp τ sig (Elt F)) := ops.take 63
/-- The second product and the second aggregation: operations 63 … 122. -/
abbrev opsB : List (HloOp τ sig (Elt F)) := (ops.drop 63).take 60
/-- The log-softmax: operations 123 … 137. -/
abbrev opsC : List (HloOp τ sig (Elt F)) := ops.drop 123

/-- The line is its three stretches in order. -/
theorem ops_split : (ops : List (HloOp τ sig (Elt F))) = opsA ++ (opsB ++ opsC) := rfl

theorem after_ops (X : Valuation τ sig (Elt F)) : after ops X = after opsC (after opsB (after opsA X)) := by
  rw [ops_split, StableHlo.after_append, StableHlo.after_append]

set_option maxHeartbeats 4000000 in
/-- The first stretch leaves the hidden layer of the first product in `main_v47`. -/
theorem stageA (X : Valuation τ sig (Elt F)) :
    after opsA X (Proc.devRef .tc main_v47)
      = hidden (Host.dotGeneral dot_S40000x1024_S1024x64_S40000x64_1_0_0_1_n_n none (X (Proc.devRef .tc main_arg0)) (X (Proc.devRef .tc main_arg2)))
          (X (Proc.devRef .tc main_arg1)) (X (Proc.devRef .tc main_arg3)) := by
  simp only [opsA, ops, List.take_succ_cons, List.take_zero]
  after_results_simp
  rfl

set_option maxHeartbeats 4000000 in
/-- The first stretch writes no argument array. -/
theorem stageA_arg1 (X : Valuation τ sig (Elt F)) : after opsA X (Proc.devRef .tc main_arg1) = X (Proc.devRef .tc main_arg1) := by
  simp only [opsA, ops, List.take_succ_cons, List.take_zero]
  after_results_simp
set_option maxHeartbeats 4000000 in
theorem stageA_arg4 (X : Valuation τ sig (Elt F)) : after opsA X (Proc.devRef .tc main_arg4) = X (Proc.devRef .tc main_arg4) := by
  simp only [opsA, ops, List.take_succ_cons, List.take_zero]
  after_results_simp
set_option maxHeartbeats 4000000 in
theorem stageA_arg5 (X : Valuation τ sig (Elt F)) : after opsA X (Proc.devRef .tc main_arg5) = X (Proc.devRef .tc main_arg5) := by
  simp only [opsA, ops, List.take_succ_cons, List.take_zero]
  after_results_simp

set_option maxHeartbeats 4000000 in
/-- The second stretch leaves the second aggregation of the second product in `main_v94`. -/
theorem stageB (X : Valuation τ sig (Elt F)) :
    after opsB X (Proc.devRef .tc main_v94)
      = agg40 (Host.dotGeneral dot_S40000x64_S64x40_S40000x40_1_0_0_1_n_n none (X (Proc.devRef .tc main_v47)) (X (Proc.devRef .tc main_arg4)))
          (X (Proc.devRef .tc main_arg1)) (X (Proc.devRef .tc main_arg5)) := by
  simp only [opsB, ops, List.drop_succ_cons, List.drop_zero, List.take_succ_cons, List.take_zero]
  after_results_simp
  rfl

/-- The log-softmax stretch with its two reductions, the exponential and the logarithm as PARAMETERS: from any
    contents `X`, the fifteen operations leave in `main_v95` the log-softmax tree of `X main_v94` over those four
    functions. (The operations are a called function's, printed with a transport along each buffer's type; with the
    reductions as variables the transports reduce away and nothing else can be unfolded.) -/
theorem logSoftmax_fold (red radd : FVec F S40000x40 .f32 → FVec F S_ .f32 → FVec F S40000 .f32)
    (ex : FVec F S40000x40 .f32 → FVec F S40000x40 .f32) (lg : FVec F S40000x1 .f32 → FVec F S40000x1 .f32)
    (X : Valuation τ sig (Elt F)) :
    after
      [ TRef.nullary (.of main_call3_cst : TRef sig ⟨S_, .f32⟩) (constant S_ .f32 0xFF800000#32),
        TRef.binary (.of main_v94 : TRef sig ⟨S40000x40, .f32⟩) (.of main_call3_cst : TRef sig ⟨S_, .f32⟩) (.of main_call3_v0 : TRef sig ⟨S40000, .f32⟩) red,
        TRef.nullary (.of main_call3_cst_0 : TRef sig ⟨S_, .f32⟩) (constant S_ .f32 0xFF800000#32),
        TRef.unary (.of main_call3_cst_0 : TRef sig ⟨S_, .f32⟩) (.of main_call3_v1 : TRef sig ⟨S40000, .f32⟩) (broadcastInDim S40000 ![] bcast_S_S40000),
        TRef.binary (.of main_call3_v1 : TRef sig ⟨S40000, .f32⟩) (.of main_call3_v0 : TRef sig ⟨S40000, .f32⟩) (.of main_call3_v2 : TRef sig ⟨S40000, .f32⟩) maximumf,
        TRef.unary (.of main_call3_v2 : TRef sig ⟨S40000, .f32⟩) (.of main_call3_v3 : TRef sig ⟨S40000x1, .f32⟩) (broadcastInDim S40000x1 ![0] bcast_S40000_S40000x1_0),
        TRef.unary (.of main_call3_v3 : TRef sig ⟨S40000x1, .f32⟩) (.of main_call3_v4 : TRef sig ⟨S40000x40, .f32⟩) (broadcastInDim S40000x40 ![0, 1] bcast_S40000x1_S40000x40_0_1),
        TRef.binary (.of main_v94 : TRef sig ⟨S40000x40, .f32⟩) (.of main_call3_v4 : TRef sig ⟨S40000x40, .f32⟩) (.of main_call3_v5 : TRef sig ⟨S40000x40, .f32⟩) subf,
        TRef.unary (.of main_call3_v5 : TRef sig ⟨S40000x40, .f32⟩) (.of main_call3_v6 : TRef sig ⟨S40000x40, .f32⟩) ex,
        TRef.nullary (.of main_call3_cst_1 : TRef sig ⟨S_, .f32⟩) (constant S_ .f32 0x00000000#32),
        TRef.binary (.of main_call3_v6 : TRef sig ⟨S40000x40, .f32⟩) (.of main_call3_cst_1 : TRef sig ⟨S_, .f32⟩) (.of main_call3_v7 : TRef sig ⟨S40000, .f32⟩) radd,
        TRef.unary (.of main_call3_v7 : TRef sig ⟨S40000, .f32⟩) (.of main_call3_v8 : TRef sig ⟨S40000x1, .f32⟩) (broadcastInDim S40000x1 ![0] bcast_S40000_S40000x1_0),
        TRef.unary (.of main_call3_v8 : TRef sig ⟨S40000x1, .f32⟩) (.of main_call3_v9 : TRef sig ⟨S40000x1, .f32⟩) lg,
        TRef.unary (.of main_call3_v9 : TRef sig ⟨S40000x1, .f32⟩) (.of main_call3_v10 : TRef sig ⟨S40000x40, .f32⟩) (broadcastInDim S40000x40 ![0, 1] bcast_S40000x1_S40000x40_0_1),
        TRef.binary (.of main_call3_v5 : TRef sig ⟨S40000x40, .f32⟩) (.of main_call3_v10 : TRef sig ⟨S40000x40, .f32⟩) (.of main_v95 : TRef sig ⟨S40000x40, .f32⟩) subf ]
      X (Proc.devRef .tc main_v95)
      = subf
          (subf (X (Proc.devRef .tc main_v94))
            (broadcastInDim S40000x40 ![0, 1] bcast_S40000x1_S40000x40_0_1 (broadcastInDim S40000x1 ![0] bcast_S40000_S40000x1_0
              (maximumf (broadcastInDim S40000 ![] bcast_S_S40000 (constant S_ .f32 0xFF800000#32))
                (red (X (Proc.devRef .tc main_v94)) (constant S_ .f32 0xFF800000#32))))))
          (broadcastInDim S40000x40 ![0, 1] bcast_S40000x1_S40000x40_0_1 (lg (broadcastInDim S40000x1 ![0] bcast_S40000_S40000x1_0
            (radd (ex (subf (X (Proc.devRef .tc main_v94))
              (broadcastInDim S40000x40 ![0, 1] bcast_S40000x1_S40000x40_0_1 (broadcastInDim S40000x1 ![0] bcast_S40000_S40000x1_0
                (maximumf (broadcastInDim S40000 ![] bcast_S_S40000 (constant S_ .f32 0xFF800000#32))
                  (red (X (Proc.devRef .tc main_v94)) (constant S_ .f32 0xFF800000#32))))))) (constant S_ .f32 0x00000000#32))))) := by
  after_results_simp
  rfl

/-- The last stretch is the log-softmax of `main_v94`, from any contents: the fold above at the host's max-reduce,
    sum-reduce, exponential and logarithm. -/
theorem logSoftmax_eq (X : Valuation τ sig (Elt F)) :
    after opsC X (Proc.devRef .tc main_v95) = logSoftmax (X (Proc.devRef .tc main_v94)) :=
  logSoftmax_fold (fun x v => Host.reduce FloatOps.maximumf x v reducesTo_S40000x40_S40000_d1 h_S_)
    (fun x v => Host.reduceAdd x v reducesTo_S40000x40_S40000_d1 h_S_) Host.exp Host.log X

variable (m : (ℓ : Loc nD τ sig) → Buf (Elt F) ℓ)

/-- The fold of the reference's operations over the launch memory, at the result buffer. -/
theorem result_eq (c : Dev nD) :
    after ops (launchContents m c) (Proc.devRef .tc main_v95)
      = output (Host.dotGeneral dot_S40000x64_S64x40_S40000x40_1_0_0_1_n_n none
          (hidden (Host.dotGeneral dot_S40000x1024_S1024x64_S40000x64_1_0_0_1_n_n none
              (m ((c.tc : Thread nD τ).loc main_arg0)) (m ((c.tc : Thread nD τ).loc main_arg2)))
            (m ((c.tc : Thread nD τ).loc main_arg1)) (m ((c.tc : Thread nD τ).loc main_arg3)))
          (m ((c.tc : Thread nD τ).loc main_arg4)))
        (m ((c.tc : Thread nD τ).loc main_arg1)) (m ((c.tc : Thread nD τ).loc main_arg5)) := by
  rw [after_ops, logSoftmax_eq, stageB, stageA, stageA_arg1, stageA_arg4, stageA_arg5]
  rfl

end Cert.ReferenceIdeal.Stages

end
-- ==== Proof.Bridge.lean ====
/-
  The two idealized programs compute one function.

  Both results are the same network of the argument arrays (`Cert.Gcn.output` of the second product of
  `Cert.Gcn.hidden` of the first), the kernel program's two products being the host's `dot_general` with the plain
  M×K by K×N dimension numbers — and the reference's own two dimension-number records are those. So from memories that
  agree on the six arguments the two result buffers agree, entry by entry, as extended reals. Nothing here needs the
  inputs to be finite: no algebraic law is used, the two sums run over the same index in the same form.
-/
import proofs.«161962_j55207509623440_1_alg».proof.Proof.KValue
import proofs.«161962_j55207509623440_1_alg».proof.Proof.RStages

set_option maxRecDepth 65536

noncomputable section

namespace Cert.Bridge

open Idealize.ShloMosaic Idealize.ShloMosaic.TcCoe Idealize.ShloMosaic.StableHlo
open Idealize.SL Idealize.SL.Sem

/-- The reference's first `dot_general` has the plain 40000×1024 by 1024×64 dimension numbers. -/
theorem plain1 : Cert.ReferenceIdeal.dot_S40000x1024_S1024x64_S40000x64_1_0_0_1_n_n = DotDims.plain 40000 1024 64 := rfl

/-- The reference's second `dot_general` has the plain 40000×64 by 64×40 dimension numbers. -/
theorem plain2 : Cert.ReferenceIdeal.dot_S40000x64_S64x40_S40000x40_1_0_0_1_n_n = DotDims.plain 40000 64 40 := rfl

/-- From memories agreeing on the arguments, the kernel program's result buffer at its return and the reference's at
    the end of its line hold the same array. -/
theorem results_agree
    (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    StableHlo.after Cert.ReferenceIdeal.ValueP.ops (launchContents m' c) (Proc.devRef .tc Cert.ReferenceIdeal.main_v95)
      = Cert.KernelIdeal.Gen.W10 m ρ c (Proc.devRef .tc Cert.KernelIdeal.main_v95) := by
  rw [Cert.ReferenceIdeal.Stages.result_eq m' c, Cert.KernelIdeal.NetValue.result_eq m ρ c, plain1, plain2, h0, h1, h2, h3, h4, h5]

end Cert.Bridge

end
-- ==== Proof.lean ====
/-
  The certificate of the two-layer graph convolution: a Pallas kernel program against its jnp reference.

  Both programs compute log_softmax(Â · relu(Â · (x W₁) + b₁) W₂ + b₂), Â the symmetrically normalised adjacency with
  self-loops, applied as a gather, a scaling by deg^(−1/2) at both ends of every edge and a scatter-add. The kernel
  program computes the two dense products x W₁ and h W₂ by row tiles on the TensorCore (bf16 operands, f32
  accumulation); everything else — the degree normalisation, the aggregation, the biases, the relu, the log-softmax —
  it runs on the host, operation for operation as the reference does.

  At the ideal instance a change of float format is the identity and a sum is exact in any order, so a row tile of a
  product is the same rows of the whole product: each pallas_call leaves in its output array exactly what the host's
  `dot_general` computes (Proof/Region0.lean, Proof/Region1.lean). The host operations around the calls are read once
  as functions of the arrays (Proof/GcnSpec.lean) in both programs (Proof/KHidden.lean, Proof/KOutput.lean for the kernel
  program, Proof/RStages.lean for the reference), and the two results are then one term of the arguments
  (Proof/Bridge.lean). No algebraic law is needed and none that would need finite inputs: the precondition is never
  opened. The ideal pass rewrote nothing in the kernel program, so `preserves` is trivial; the frames of the two kernel
  programs are the generated ones, the reference's frame is its run with the result dropped.
-/
import proofs.«161962_j55207509623440_1_alg».proof.Defs
import proofs.«161962_j55207509623440_1_alg».proof.Proof.Gen.Kernel
import proofs.«161962_j55207509623440_1_alg».proof.Proof.Gen.Kernel.Skeleton
import proofs.«161962_j55207509623440_1_alg».proof.Proof.Gen.Kernel.Launch
import proofs.«161962_j55207509623440_1_alg».proof.Proof.Gen.Kernel.Points
import proofs.«161962_j55207509623440_1_alg».proof.Proof.Gen.Kernel.Frame
import proofs.«161962_j55207509623440_1_alg».proof.Proof.Gen.KernelIdeal
import proofs.«161962_j55207509623440_1_alg».proof.Proof.Gen.KernelIdeal.Skeleton
import proofs.«161962_j55207509623440_1_alg».proof.Proof.Gen.KernelIdeal.Launch
import proofs.«161962_j55207509623440_1_alg».proof.Proof.Gen.KernelIdeal.Points
import proofs.«161962_j55207509623440_1_alg».proof.Proof.Gen.KernelIdeal.Frame
import proofs.«161962_j55207509623440_1_alg».proof.Proof.Gen.ReferenceIdeal
import proofs.«161962_j55207509623440_1_alg».proof.Proof.Gen.Pre_finite_inputs
import proofs.«161962_j55207509623440_1_alg».proof.Proof.KRun
import proofs.«161962_j55207509623440_1_alg».proof.Proof.RefRun
import proofs.«161962_j55207509623440_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched: the generated frame. -/
theorem frame_kernel : Cert.frame_Kernel := fun m ρ _ => Cert.Kernel.Gen.frame m ρ

/-- The idealized kernel program runs and leaves its arguments as launched: the generated frame. -/
theorem frame_kernelIdeal : Cert.frame_KernelIdeal := fun m ρ _ => Cert.KernelIdeal.Gen.frame m ρ

/-- The idealized reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation of the kernel program. -/
theorem preserves : Cert.preserves_Kernel_KernelIdeal := trivial

/-- From memories agreeing on the six arguments both idealized programs run, leave the arguments as launched and end
    with one result array: the kernel program's result buffer at its last segment boundary, which is the reference's
    at the end of its line (`Cert.Bridge.results_agree`). -/
theorem algebraic : Cert.algebraic_KernelIdeal_ReferenceIdeal := by
  intro m ρ m' ρ' _ hagree
  refine ⟨fun c => Cert.KernelIdeal.Gen.W10 m ρ c (Proc.devRef .tc Cert.KernelIdeal.main_v95),
    Cert.KernelIdeal.RunValue.run_W10 m ρ, ?_⟩
  refine (θ_run Cert.ReferenceIdeal.defs _ _).mono (fun _ h c => ⟨(h c).1.trans ?_, (h c).2⟩)
    (Cert.ReferenceIdeal.ValueP.run (F := Ideal) m' ρ')
  exact Cert.Bridge.results_agree m ρ m' c (hagree c).1 (hagree c).2.1 (hagree c).2.2.1 (hagree c).2.2.2.1
    (hagree c).2.2.2.2.1 (hagree c).2.2.2.2.2

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
